-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2457600x4 : Shape := ⟨2, ![2457600, 4]⟩
abbrev S_ : Shape := ⟨0, ![]⟩

class Facts : Prop where
  bcast_S_S2457600x4 : S_.BroadcastsInDim S2457600x4 (![] : Fin 0 → Fin S2457600x4.rank)
  reducesTo_S2457600x4_S_d0_1 : S2457600x4.ReducesTo [0, 1] S_
  h_S_ : 0 < S_.numel

variable [Facts]

def fn {F : FTy → Type} [FloatOps F] (main_arg0 : FVec F S2457600x4 .f32) (main_arg1 : FVec F S2457600x4 .f32) : IVec S_ 1 :=
  let main_v0 : FVec F S2457600x4 .f32 := Host.absf main_arg0
  let main_cst : FVec F S_ .f32 := constant S_ .f32 0x7F800000#32
  let main_v1 : FVec F S2457600x4 .f32 := broadcastInDim S2457600x4 ![] bcast_S_S2457600x4 main_cst
  let main_v2 : IVec S2457600x4 1 := cmpf .olt main_v0 main_v1
  let main_c : IVec S_ 1 := constantI S_ 1 1#1
  let main_v3 : IVec S_ 1 := (fun x v => Host.reduce IntOp.andi x v reducesTo_S2457600x4_S_d0_1 h_S_) main_v2 main_c
  let main_v4 : FVec F S2457600x4 .f32 := Host.absf main_arg1
  let main_cst_0 : FVec F S_ .f32 := constant S_ .f32 0x7F800000#32
  let main_v5 : FVec F S2457600x4 .f32 := broadcastInDim S2457600x4 ![] bcast_S_S2457600x4 main_cst_0
  let main_v6 : IVec S2457600x4 1 := cmpf .olt main_v4 main_v5
  let main_c_1 : IVec S_ 1 := constantI S_ 1 1#1
  let main_v7 : IVec S_ 1 := (fun x v => Host.reduce IntOp.andi x v reducesTo_S2457600x4_S_d0_1 h_S_) main_v6 main_c_1
  let main_v8 : IVec S_ 1 := andi main_v3 main_v7
  main_v8
-- ==== Kernel.lean ====
abbrev S2457600x4 : Shape := ⟨2, ![2457600, 4]⟩
abbrev S8192x4 : Shape := ⟨2, ![8192, 4]⟩
abbrev S8192x2 : Shape := ⟨2, ![8192, 2]⟩

abbrev nBuf : Space → Nat
  | .hbm => 3
  | .vmem => 6
  | .smem => 0
  | _ => 0

abbrev bufTy : (tb : Table) → Fin (tcTables nBuf tb) → BufTy
  | .hbm, ⟨0, _⟩ => ⟨S2457600x4, .f32⟩
  | .hbm, ⟨1, _⟩ => ⟨S2457600x4, .f32⟩
  | .hbm, ⟨2, _⟩ => ⟨S2457600x4, .f32⟩
  | .local _ .vmem, ⟨0, _⟩ => ⟨S8192x4, .f32⟩
  | .local _ .vmem, ⟨1, _⟩ => ⟨S8192x4, .f32⟩
  | .local _ .vmem, ⟨2, _⟩ => ⟨S8192x4, .f32⟩
  | .local _ .vmem, ⟨3, _⟩ => ⟨S8192x4, .f32⟩
  | .local _ .vmem, ⟨4, _⟩ => ⟨S8192x4, .f32⟩
  | .local _ .vmem, ⟨5, _⟩ => ⟨S8192x4, .f32⟩
  | _, _ => ⟨S2457600x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x4_S8192x4_0_0 : ∀ a, (![0, 0] : Fin 2 → Nat) a + S8192x4.size a ≤ S8192x4.size a
  h_S8192x4 : 0 < S8192x4.numel
  slices_S8192x4_o0_0_S8192x2 : S8192x4.Slices ![0, 0] S8192x2
  slices_S8192x4_o0_2_S8192x2 : S8192x4.Slices ![0, 2] S8192x2
  concatenates_S8192x2_S8192x2_S8192x4_d1 : Shape.Concatenates [S8192x2, S8192x2] S8192x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S2457600x4.size a
  hwx0_0 : ∀ i : grid0.Coords, EltTy.bits .f32 = 32 ∨ (Rect.block (s := S2457600x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S2457600x4.size a
  hwx0_1 : ∀ i : grid0.Coords, EltTy.bits .f32 = 32 ∨ (Rect.block (s := S2457600x4) S8192x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x4.size a ≤ S2457600x4.size a
  hwx0_2 : ∀ i : grid0.Coords, EltTy.bits .f32 = 32 ∨ (Rect.block (s := S2457600x4) S8192x4.size (cc0_transform_2 i) (hinb0_2 i)).WholeWords (EltTy.packing .f32)

variable [Facts₀]

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2457600x4 : Shape := ⟨2, ![2457600, 4]⟩
abbrev S2457600x2 : Shape := ⟨2, ![2457600, 2]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2457600x4, .f32⟩
  | .hbm, ⟨1, _⟩ => ⟨S2457600x4, .f32⟩
  | .hbm, ⟨2, _⟩ => ⟨S2457600x2, .f32⟩
  | .hbm, ⟨3, _⟩ => ⟨S2457600x2, .f32⟩
  | .hbm, ⟨4, _⟩ => ⟨S_, .f32⟩
  | .hbm, ⟨5, _⟩ => ⟨S2457600x2, .f32⟩
  | .hbm, ⟨6, _⟩ => ⟨S2457600x2, .f32⟩
  | .hbm, ⟨7, _⟩ => ⟨S2457600x4, .f32⟩
  | .hbm, ⟨8, _⟩ => ⟨S_, .f32⟩
  | .hbm, ⟨9, _⟩ => ⟨S2457600x4, .f32⟩
  | .hbm, ⟨10, _⟩ => ⟨S2457600x4, .i1⟩
  | .hbm, ⟨11, _⟩ => ⟨S2457600x2, .f32⟩
  | .hbm, ⟨12, _⟩ => ⟨S2457600x2, .f32⟩
  | .hbm, ⟨13, _⟩ => ⟨S2457600x2, .f32⟩
  | .hbm, ⟨14, _⟩ => ⟨S_, .f32⟩
  | .hbm, ⟨15, _⟩ => ⟨S2457600x2, .f32⟩
  | .hbm, ⟨16, _⟩ => ⟨S2457600x2, .f32⟩
  | .hbm, ⟨17, _⟩ => ⟨S2457600x2, .f32⟩
  | .hbm, ⟨18, _⟩ => ⟨S2457600x2, .f32⟩
  | .hbm, ⟨19, _⟩ => ⟨S2457600x2, .f32⟩
  | .hbm, ⟨20, _⟩ => ⟨S2457600x2, .f32⟩
  | .hbm, ⟨21, _⟩ => ⟨S2457600x2, .f32⟩
  | .hbm, ⟨22, _⟩ => ⟨S2457600x2, .f32⟩
  | .hbm, ⟨23, _⟩ => ⟨S2457600x2, .f32⟩
  | .hbm, ⟨24, _⟩ => ⟨S_, .f32⟩
  | .hbm, ⟨25, _⟩ => ⟨S2457600x2, .f32⟩
  | .hbm, ⟨26, _⟩ => ⟨S2457600x2, .f32⟩
  | .hbm, ⟨27, _⟩ => ⟨S2457600x2, .f32⟩
  | .hbm, ⟨28, _⟩ => ⟨S_, .f32⟩
  | .hbm, ⟨29, _⟩ => ⟨S2457600x2, .f32⟩
  | .hbm, ⟨30, _⟩ => ⟨S2457600x2, .f32⟩
  | .hbm, ⟨31, _⟩ => ⟨S2457600x2, .f32⟩
  | .hbm, ⟨32, _⟩ => ⟨S2457600x4, .f32⟩
  | .hbm, ⟨33, _⟩ => ⟨S2457600x4, .i1⟩
  | .hbm, ⟨34, _⟩ => ⟨S2457600x4, .f32⟩
  | .hbm, ⟨35, _⟩ => ⟨S2457600x4, .f32⟩
  | .hbm, ⟨36, _⟩ => ⟨S2457600x4, .f32⟩
  | .hbm, ⟨37, _⟩ => ⟨S_, .f32⟩
  | .hbm, ⟨38, _⟩ => ⟨S2457600x4, .f32⟩
  | .hbm, ⟨39, _⟩ => ⟨S2457600x4, .f32⟩
  | .hbm, ⟨40, _⟩ => ⟨S2457600x4, .f32⟩
  | _, _ => ⟨S2457600x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  slices_S2457600x4_S2457600x2_0_0 : S2457600x4.Slices ![0, 0] S2457600x2
  slices_S2457600x4_S2457600x2_0_2 : S2457600x4.Slices ![0, 2] S2457600x2
  bcast_S_S2457600x2 : S_.BroadcastsInDim S2457600x2 (![] : Fin 0 → Fin S2457600x2.rank)
  concatenates_S2457600x2_S2457600x2_S2457600x4_d1 : Shape.Concatenates [S2457600x2, S2457600x2] S2457600x4 1
  bcast_S_S2457600x4 : S_.BroadcastsInDim S2457600x4 (![] : Fin 0 → Fin S2457600x4.rank)

variable [Facts₀]

class Facts : Prop extends Facts₀ where

variable [Facts]
-- ==== Proof.Spec.lean ====
/-
  Decoding box-regression offsets against anchor boxes, with masking of neutral entries: the
  specification as one function on the extended reals, and the scalar laws that join the two
  programs.

  A row of the anchor array is a box `(x₀, y₀, x₁, y₁)`; a row of the offset array is
  `(dx, dy, dw, dh)`. Along one axis (column `k` for the low corner, column `2 + k` for the high
  corner, `k = 0, 1`) the decoded box has centre `(lo + hi)/2 + (hi - lo)·d_xy` and extent
  `(hi - lo)·exp (min d_wh clamp)`, and its two edges are centre ∓ extent/2. An output entry in
  columns 0, 1 is a low edge and is replaced by the neutral value when `d_xy` is below the mask
  threshold; an entry in columns 2, 3 is a high edge and is replaced when the clamped `d_wh` is.

  Two laws are all that separates the two spellings of this function:
  • dividing by 2 is multiplying by 1/2, on every extended real (`halve`);
  • `v · [¬b] + c · [b]` with the indicators `[b], [¬b] ∈ {0, 1}` of a bit `b` is `c` when the bit is
    set and `v` otherwise, on every extended real: `v · 0 = 0` also at the infinities (`mask_arith`).
  Neither needs the entries to be finite.
-/
import Idealize.ShloMosaic.PureOps.Ideal
import Idealize.ShloMosaic.PureOps.Vector

noncomputable section

namespace Cert.BoxDecode

open Idealize.ShloMosaic

/-! ## The constants -/

/-- The upper clamp of the log-scale offsets (the float nearest `log 28`; the same word in both programs, never evaluated). -/
abbrev scaleClamp : EReal := Ideal.ofBits .f32 0x405542D7#32
/-- `0.5`. -/
abbrev half : EReal := Ideal.ofBits .f32 0x3F000000#32
/-- `2.0`. -/
abbrev two : EReal := Ideal.ofBits .f32 0x40000000#32
/-- The mask threshold, `-10⁷` (the same word in both programs, never evaluated). -/
abbrev maskBelow : EReal := Ideal.ofBits .f32 0xCB189680#32
/-- The neutral value, `-10⁸` (the same word in both programs, never evaluated). -/
abbrev neutral : EReal := Ideal.ofBits .f32 0xCCBEBC20#32

/-- The pattern of `2.0` denotes the real `2`. -/
theorem two_eq : two = ((2 : ℝ) : EReal) := by
  simp [two, Ideal.ofBits, Ideal.ieee, -EReal.coe_mul]; norm_num

/-- The pattern of `0.5` denotes the real `1/2`. -/
theorem half_eq : half = ((1 / 2 : ℝ) : EReal) := by
  simp [half, Ideal.ofBits, Ideal.ieee, -EReal.coe_mul]; norm_num

/-! ## The two laws -/

/-- Dividing by two is multiplying by a half, at the infinities too. -/
theorem halve (x : EReal) : Ideal.div x two = x * half := by
  rw [two_eq, half_eq]
  exact Ideal.div_coe (by norm_num) x

/-- Masking by arithmetic is selection: with `[b]` the bit read as `0` or `1`,
    `v · [¬b] + c · [b]` is `c` when the bit is set and `v` when it is not. -/
theorem mask_arith (b : BitVec 1) (c v : EReal) :
    v * (((~~~b).toNat : ℝ) : EReal) + c * ((b.toNat : ℝ) : EReal) = Scalar.select b c v := by
  rcases BitVec.eq_zero_or_eq_one b with h | h <;> subst h
  · have e1 : (~~~(0#1 : BitVec 1)).toNat = 1 := by decide
    have e0 : (0#1 : BitVec 1).toNat = 0 := by decide
    have hs : Scalar.select (0#1 : BitVec 1) c v = v := by unfold Scalar.select; rw [if_neg (by decide)]
    rw [e1, e0, hs]; simp
  · have e1 : (~~~(1#1 : BitVec 1)).toNat = 0 := by decide
    have e0 : (1#1 : BitVec 1).toNat = 1 := by decide
    have hs : Scalar.select (1#1 : BitVec 1) c v = c := by unfold Scalar.select; rw [if_pos (by decide)]
    rw [e1, e0, hs]; simp

/-! ## One axis of one box -/

/-- The decoded centre along an axis: the anchor's centre moved by `d_xy` anchor extents. -/
def centre (lo hi dxy : EReal) : EReal := (lo + hi) * half + (hi - lo) * dxy

/-- The decoded extent along an axis: the anchor's extent scaled by `exp` of the clamped `d_wh`. -/
def extent (lo hi dwh : EReal) : EReal := (hi - lo) * Ideal.exp (min dwh scaleClamp)

/-- The low edge, masked on `d_xy`. -/
def lowEdge (lo hi dxy dwh : EReal) : EReal :=
  Scalar.select (Ideal.cmp .olt dxy maskBelow) neutral (centre lo hi dxy - extent lo hi dwh * half)

/-- The high edge, masked on the clamped `d_wh`. -/
def highEdge (lo hi dxy dwh : EReal) : EReal :=
  Scalar.select (Ideal.cmp .olt (min dwh scaleClamp) maskBelow) neutral (centre lo hi dxy + extent lo hi dwh * half)

/-! ## The arrays -/

/-- `n` boxes, four numbers each. -/
abbrev Boxes (n : Nat) : Shape := ⟨2, ![n, 4]⟩

/-- The index in the row of `j` at column `k`. -/
def atCol {n : Nat} (j : (Boxes n).Idx) (k : Nat) (hk : k < 4) : (Boxes n).Idx := fun a => match a with
  | ⟨0, _⟩ => ⟨(j 0).val, (j 0).isLt⟩
  | ⟨1, _⟩ => ⟨k, hk⟩

/-- The entry of `X` in the row of `j`, in the column of `j`'s axis (`(j 1) % 2`) moved by `off`:
    `off = 0` the low corner's, `off = 2` the high corner's. -/
def pick {n : Nat} (X : (Boxes n).Idx → EReal) (j : (Boxes n).Idx) (off : Nat) (hoff : off ≤ 2) : EReal :=
  X (atCol j (off + (j 1).val % 2) (by omega))

/-- THE SPECIFICATION: the decoded, masked boxes as one function of the offsets `D` and the anchors `A`,
    index by index. Columns 0, 1 hold low edges, columns 2, 3 high edges. -/
def decode {n : Nat} (D A : (Boxes n).Idx → EReal) : (Boxes n).Idx → EReal := fun j =>
  if (j 1).val < 2 then
    lowEdge (pick A j 0 (by omega)) (pick A j 2 (by omega)) (pick D j 0 (by omega)) (pick D j 2 (by omega))
  else
    highEdge (pick A j 0 (by omega)) (pick A j 2 (by omega)) (pick D j 0 (by omega)) (pick D j 2 (by omega))

/-- An entry of the decoded boxes depends only on its row of the two arrays and on its column: if row `y` of
    `D`, `A` is row `j` of `D'`, `A'`, entry by entry, and the columns agree, the decoded entries agree. This is what carries
    the decoding of a block of rows to the decoding of the whole array. -/
theorem decode_congr {n n' : Nat} (D A : (Boxes n).Idx → EReal) (D' A' : (Boxes n').Idx → EReal)
    (y : (Boxes n).Idx) (j : (Boxes n').Idx) (hcol : (j 1).val = (y 1).val)
    (hD : ∀ (k : Nat) (hk : k < 4), D (atCol y k hk) = D' (atCol j k hk))
    (hA : ∀ (k : Nat) (hk : k < 4), A (atCol y k hk) = A' (atCol j k hk)) :
    decode D A y = decode D' A' j := by
  have hp : ∀ (X : (Boxes n).Idx → EReal) (X' : (Boxes n').Idx → EReal),
      (∀ (k : Nat) (hk : k < 4), X (atCol y k hk) = X' (atCol j k hk)) →
      ∀ (off : Nat) (hoff : off ≤ 2), pick X y off hoff = pick X' j off hoff := by
    intro X X' hX off hoff
    unfold pick
    rw [hX]
    have hk : ∀ (k k' : Nat) (hk : k < 4) (hk' : k' < 4), k = k' → X' (atCol j k hk) = X' (atCol j k' hk') := by
      intro k k' hk hk' e; subst e; rfl
    exact hk _ _ _ _ (by rw [hcol])
  unfold decode
  rw [hp D D' hD, hp D D' hD, hp A A' hA, hp A A' hA, hcol]

end Cert.BoxDecode

end
-- ==== Proof.KernelValue.lean ====
/-
  What the kernel leaves in its result array, at the exact instance: the decoded, masked boxes
  (`Cert.BoxDecode.decode`) of the two argument arrays.

  The kernel works on blocks of 8192 consecutive rows. At a grid point its body loads the block of offsets and
  the block of anchors, computes the two low-edge columns and the two high-edge columns from column slices
  of the loads, joins them along the column axis and stores the block. So
  • at a block index `y` the stored block is the specification's entry of the two loaded blocks
    (`block_entry`: the joined halves read at `y` are the half `(y 1) / 2` at column `(y 1) % 2`, and each
    column slice there is the load in the same row, at column `(y 1) % 2` or `2 + (y 1) % 2`);
  • the block of point `t` is rows `8192·t … 8192·t + 8191` of each array, all four columns, for the
    two inputs and the output alike (`block_index`), and an entry of the decoded boxes depends only on
    its own row; hence what point `t` writes back is block `t` of the decoded whole arrays
    (`written_back`);
  • the 300 blocks cover the 2457600 rows: row `r` is in block `r / 8192` (`covered`).
  So the result array ends as the decoded arrays (`result_array`, `run`).
-/
import proofs.«163395_j53807350284714_2_alg».proof.Proof.Gen.KernelIdeal.Value
import proofs.«163395_j53807350284714_2_alg».proof.Proof.Spec
import Idealize.ShloMosaic.Lib.Pipeline.Value

noncomputable section

namespace Cert.KernelIdeal.Decoded

open Cert.KernelIdeal Cert.KernelIdeal.Gen Cert.KernelIdeal.Value Idealize.ShloMosaic Idealize.ShloMosaic.TcCoe Idealize.SL.Sem
open Idealize.ShloMosaic.Pipeline (Dat)
open Cert.BoxDecode

/-! ## One entry of one block -/

/-- The entry the body stores at block index `y` is the decoded entry of the two loaded blocks. -/
theorem block_entry (P0 P1 : Vec Ideal S8192x4 .f32) (y : S8192x4.Idx) :
    E2 (F := Ideal) P0 P1 y = decode (n := 8192) P0 P1 y := by
  have hy1 : (y 1).val < 4 := (y 1).isLt
  -- a slice of the first two columns, read in the column of `y`'s axis, is the load at that column
  have s0 : ∀ X : Vec Ideal S8192x4 .f32,
      extractStridedSlice S8192x2 ![0, 0] X slices_S8192x4_o0_0_S8192x2 (ix2_0 y) = pick (n := 8192) X y 0 (by omega) :=
    fun X => extractStridedSlice_apply ![0, 0] X slices_S8192x4_o0_0_S8192x2 (ix2_0 y)
      (atCol (n := 8192) y (0 + (y 1).val % 2) (by omega)) (fun a => match a with
        | ⟨0, _⟩ => by show (y 0).val = 0 + (y 0).val; omega
        | ⟨1, _⟩ => by show 0 + (y 1).val % 2 = 0 + (y 1).val % 2; rfl)
  -- and a slice of the last two columns is the load two columns further
  have s2 : ∀ X : Vec Ideal S8192x4 .f32,
      extractStridedSlice S8192x2 ![0, 2] X slices_S8192x4_o0_2_S8192x2 (ix2_0 y) = pick (n := 8192) X y 2 (by omega) :=
    fun X => extractStridedSlice_apply ![0, 2] X slices_S8192x4_o0_2_S8192x2 (ix2_0 y)
      (atCol (n := 8192) y (2 + (y 1).val % 2) (by omega)) (fun a => match a with
        | ⟨0, _⟩ => by show (y 0).val = 0 + (y 0).val; omega
        | ⟨1, _⟩ => by show 2 + (y 1).val % 2 = 2 + (y 1).val % 2; rfl)
  show Cat2_0 P0 P1 (csel2_0 y) (ix2_0 y) = _
  unfold decode
  by_cases h : (y 1).val < 2
  · -- columns 0, 1: the first of the joined halves, the low edges
    have hsel : csel2_0 y = ⟨0, by decide⟩ := Fin.ext (by show (y 1).val / 2 = 0; omega)
    rw [hsel, if_pos h]
    simp only [Cat2_0, Idealize.ShloMosaic.select, Idealize.ShloMosaic.cmpf, Idealize.ShloMosaic.subf, Idealize.ShloMosaic.addf,
      Idealize.ShloMosaic.mulf, Idealize.ShloMosaic.exp, Idealize.ShloMosaic.minimumf, broadcast, s0, s2]
    rfl
  · -- columns 2, 3: the second half, the high edges
    have hsel : csel2_0 y = ⟨1, by decide⟩ := Fin.ext (by show (y 1).val / 2 = 1; omega)
    rw [hsel, if_neg h]
    simp only [Cat2_0, Idealize.ShloMosaic.select, Idealize.ShloMosaic.cmpf, Idealize.ShloMosaic.subf, Idealize.ShloMosaic.addf,
      Idealize.ShloMosaic.mulf, Idealize.ShloMosaic.exp, Idealize.ShloMosaic.minimumf, broadcast, s0, s2]
    rfl

/-! ## From blocks to the arrays -/

variable (m : (ℓ : Loc nD τ sig) → Buf (Elt Ideal) ℓ) (ρ : Dev nD → PrngReg)

theorem zero_offsets : (![0, 0] : Fin 2 → Nat) = fun _ => 0 := funext fun a => by fin_cases a <;> rfl

/-- At grid point `t` every window — the offsets', the anchors', the result's — is at block `(t, 0)` of its
    array (decided over the 300 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the decoded argument arrays: the stored block is the decoding of
    the two loaded blocks (`block_entry`), row `y` of a loaded block is row `8192·t + y` of its array, and that
    is the row of the result the entry is written to. -/
theorem written_back (c : Dev nD) (t : Fin cfg0.N) :
    (dats m 0 c).flushed 2 t
      = ((cfg0.win 2).blk t).view.read (Elt Ideal) (decode (n := 2457600) (V m c main_arg0) (V m c main_arg1)) := by
  rw [flushed2]
  obtain ⟨a0, a1, b0, b1, o0, o1⟩ := block_index t
  funext y
  show out0_2 (iblk m c 0 t) (iblk m c 1 t) y
    = decode (n := 2457600) (V m c main_arg0) (V m c main_arg1) (((cfg0.win 2).blk t).view.emb y)
  unfold out0_2
  refine (canon2_eq _ _ y).trans ?_
  refine (block_entry _ _ y).trans ?_
  rw [View.ld_unit_zero (S := S8192x4) zero_offsets, View.ld_unit_zero (S := S8192x4) zero_offsets]
  have hy0 : (y 0).val < 8192 := (y 0).isLt
  refine decode_congr (n := 8192) (n' := 2457600) _ _ _ _ y _ ?_ ?_ ?_
  · show win0_2.index t (1 : Fin 2) * 4 + 1 * (y 1).val = (y 1).val
    omega
  · intro k hk
    show V m c main_arg0 (((cfg0.win 0).blk t).view.emb (atCol (n := 8192) y k hk)) = V m c main_arg0 _
    refine congrArg (V m c main_arg0) (funext fun a => Fin.ext ?_)
    match a with
    | ⟨0, _⟩ => show win0_0.index t (0 : Fin 2) * 8192 + 1 * (y 0).val = win0_2.index t (0 : Fin 2) * 8192 + 1 * (y 0).val; omega
    | ⟨1, _⟩ => show win0_0.index t (1 : Fin 2) * 4 + 1 * k = k; omega
  · intro k hk
    show V m c main_arg1 (((cfg0.win 1).blk t).view.emb (atCol (n := 8192) y k hk)) = V m c main_arg1 _
    refine congrArg (V m c main_arg1) (funext fun a => Fin.ext ?_)
    match a with
    | ⟨0, _⟩ => show win0_1.index t (0 : Fin 2) * 8192 + 1 * (y 0).val = win0_2.index t (0 : Fin 2) * 8192 + 1 * (y 0).val; omega
    | ⟨1, _⟩ => show win0_1.index t (1 : Fin 2) * 4 + 1 * k = k; omega

/-- An index of the result array is in point `t`'s block iff each coordinate is in the block's range on its axis. -/
theorem mem_block (t : Fin cfg0.N) (i : S2457600x4.Idx) :
    i ∈ ((cfg0.win 2).blk t).view.set ↔ ∀ a : Fin 2, win0_2.index t a * S8192x4.size a ≤ (i a).val
      ∧ (i a).val < win0_2.index t a * S8192x4.size a + S8192x4.size a := by
  show i ∈ ((View.whole main_v0).slice (win0_2.rect t)).set ↔ _
  rw [View.set_slice_whole, Rect.mem_set_unit]
  exact Iff.rfl

/-- THE BLOCKS COVER THE ARRAY: row `r` is in the block of point `r / 8192`. -/
theorem covered (i : S2457600x4.Idx) :
    ∃ t : Fin cfg0.N, (cfg0.win 2).flush t = true ∧ i ∈ ((cfg0.win 2).blk t).view.set := by
  have hi0 : (i 0).val < 2457600 := (i 0).isLt
  have hi1 : (i 1).val < 4 := (i 1).isLt
  have hN : grid0.N = 300 := N_0
  have ht : (i 0).val / 8192 < cfg0.N := by show (i 0).val / 8192 < grid0.N; omega
  obtain ⟨-, -, -, -, o0, o1⟩ := block_index ⟨(i 0).val / 8192, ht⟩
  refine ⟨⟨(i 0).val / 8192, ht⟩, flush0_2 _, ?_⟩
  rw [mem_block]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win0_2.index ⟨(i 0).val / 8192, ht⟩ (1 : Fin 2) * 4 ≤ (i 1).val
      ∧ (i 1).val < win0_2.index ⟨(i 0).val / 8192, ht⟩ (1 : Fin 2) * 4 + 4
    omega

/-- THE RESULT ARRAY after the run is the decoding of the argument arrays. -/
theorem result_array (c : Dev nD) :
    (dats m 0 c).arrAt 2 cfg0.N
      = decode (n := 2457600) (m ((c : Thread nD τ).loc main_arg0)) (m ((c : Thread nD τ).loc main_arg1)) :=
  (dats m 0 c).arrAt_eq_of_cover 2 (decode (n := 2457600) (V m c main_arg0) (V m c main_arg1))
    (fun t _ => written_back m c t) covered

/-- The run, read: the result array at the decoded boxes, the arguments unchanged. -/
theorem run : θ_run defs (onTc (τ := τ) (main (F := Ideal))) ⟨m, fun _ => 0, ρ⟩ fun r => ∀ c : Dev nD,
      r.2.mem ((c : Thread nD τ).loc main_v0)
        = decode (n := 2457600) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (run_blocks m ρ)

end Cert.KernelIdeal.Decoded

end
-- ==== Proof.RefValue.lean ====
/-
  What the reference computes, at the exact instance: the decoded, masked boxes (`Cert.BoxDecode.decode`) of
  its two arguments.

  The reference works on whole arrays: it slices the offsets and the anchors into their first two and last two
  columns, computes the low edges and the high edges as two arrays of two columns, joins them along the column
  axis, and masks the joined array by arithmetic with the comparison of the joined `(d_xy, clamped d_wh)` array
  against the threshold. Read at an index `i`:
  • a joined array at `i` is its first part at `(i 0, i 1)` when `i 1 < 2` and its second part at
    `(i 0, i 1 - 2)` otherwise — in both cases the part's column is `(i 1) % 2`;
  • a column slice at `(i 0, (i 1) % 2)` is the argument in the same row at column `(i 1) % 2` or `2 + (i 1) % 2`;
  • the arithmetic mask is a selection (`mask_arith`) and the reference's division by two the kernel's product
    with a half (`halve`).
-/
import proofs.«163395_j53807350284714_2_alg».proof.Proof.RefRead
import proofs.«163395_j53807350284714_2_alg».proof.Proof.Spec
import Idealize.ShloMosaic.Lib.Pipeline.Value

noncomputable section

namespace Cert.ReferenceIdeal.Decoded

open Cert.ReferenceIdeal Cert.ReferenceIdeal.Gen Cert.ReferenceIdeal.ReadP Idealize.ShloMosaic Idealize.ShloMosaic.TcCoe
open Cert.BoxDecode

/-- The index of a two-column part that holds entry `i` of the four-column array joined from two such parts. -/
def part (i : S2457600x4.Idx) : S2457600x2.Idx := fun a => match a with
  | ⟨0, _⟩ => ⟨(i 0).val, (i 0).isLt⟩
  | ⟨1, _⟩ => ⟨(i 1).val % 2, by have h : (i 1).val < 4 := (i 1).isLt; show (i 1).val % 2 < 2; omega⟩

/-- THE REFERENCE'S RESULT is the decoding of its arguments, index by index. -/
theorem result_eq (x0 x1 : S2457600x4.Idx → EReal) :
    val_main_v32 (F := Ideal) x0 x1 = decode (n := 2457600) x0 x1 := by
  funext i
  have hi1 : (i 1).val < 4 := (i 1).isLt
  -- where the column slices read the arguments, in the part's index `part i`
  have c0 : idx_main_v0 (part i) = atCol (n := 2457600) i (0 + (i 1).val % 2) (by omega) := funext fun a => Fin.ext (by
    match a with
    | ⟨0, _⟩ => rfl
    | ⟨1, _⟩ => show (i 1).val % 2 = 0 + (i 1).val % 2; omega)
  have c1 : idx_main_v1 (part i) = atCol (n := 2457600) i (2 + (i 1).val % 2) (by omega) := funext fun a => Fin.ext (by
    match a with
    | ⟨0, _⟩ => rfl
    | ⟨1, _⟩ => rfl)
  have c7 : idx_main_v7 (part i) = atCol (n := 2457600) i (0 + (i 1).val % 2) (by omega) := funext fun a => Fin.ext (by
    match a with
    | ⟨0, _⟩ => rfl
    | ⟨1, _⟩ => show (i 1).val % 2 = 0 + (i 1).val % 2; omega)
  have c8 : idx_main_v8 (part i) = atCol (n := 2457600) i (2 + (i 1).val % 2) (by omega) := funext fun a => Fin.ext (by
    match a with
    | ⟨0, _⟩ => rfl
    | ⟨1, _⟩ => rfl)
  have c12 : idx_main_v12 (part i) = atCol (n := 2457600) i (2 + (i 1).val % 2) (by omega) := funext fun a => Fin.ext (by
    match a with
    | ⟨0, _⟩ => rfl
    | ⟨1, _⟩ => rfl)
  have c13 : idx_main_v13 (part i) = atCol (n := 2457600) i (0 + (i 1).val % 2) (by omega) := funext fun a => Fin.ext (by
    match a with
    | ⟨0, _⟩ => rfl
    | ⟨1, _⟩ => show (i 1).val % 2 = 0 + (i 1).val % 2; omega)
  -- the mask by arithmetic is a selection
  rw [val_main_v32_apply, val_main_v28_apply, val_main_v31_apply, val_main_v27_apply, val_main_v29_apply,
    val_main_v26_apply, val_main_v6_apply, val_main_v30_apply, val_main_v5_apply, val_main_cst_4_apply,
    val_main_cst_0_apply]
  show val_main_v25 (F := Ideal) x0 x1 i * (((~~~(Ideal.cmp .olt (val_main_v4 (F := Ideal) x0 i) maskBelow)).toNat : ℝ) : EReal)
      + neutral * (((Ideal.cmp .olt (val_main_v4 (F := Ideal) x0 i) maskBelow).toNat : ℝ) : EReal) = _
  rw [mask_arith]
  unfold decode
  by_cases h : (i 1).val < 2
  · -- columns 0, 1: the first parts, the unclamped `d_xy` and the low edges
    have h4 : val_main_v4 (F := Ideal) x0 i = val_main_v0 (F := Ideal) x0 (part i) :=
      concatenate_pair_apply_left (t := S2457600x4) (s₁ := S2457600x2) (s₂ := S2457600x2) (1 : Fin 2)
        (val_main_v0 (F := Ideal) x0) (val_main_v3 (F := Ideal) x0)
        concatenates_S2457600x2_S2457600x2_S2457600x4_d1 i (rfl : S2457600x2.rank = S2457600x4.rank) (part i)
        (fun b => match b with
          | ⟨0, _⟩ => rfl
          | ⟨1, _⟩ => by show (i 1).val % 2 = (i 1).val; omega)
    have h25 : val_main_v25 (F := Ideal) x0 x1 i = val_main_v21 (F := Ideal) x0 x1 (part i) :=
      concatenate_pair_apply_left (t := S2457600x4) (s₁ := S2457600x2) (s₂ := S2457600x2) (1 : Fin 2)
        (val_main_v21 (F := Ideal) x0 x1) (val_main_v24 (F := Ideal) x0 x1)
        concatenates_S2457600x2_S2457600x2_S2457600x4_d1 i (rfl : S2457600x2.rank = S2457600x4.rank) (part i)
        (fun b => match b with
          | ⟨0, _⟩ => rfl
          | ⟨1, _⟩ => by show (i 1).val % 2 = (i 1).val; omega)
    rw [if_pos h, h4, h25]
    simp only [val_main_v21_apply, val_main_v16_apply, val_main_v20_apply, val_main_v11_apply, val_main_v15_apply,
      val_main_v18_apply, val_main_v19_apply, val_main_cst_2_apply, val_main_v9_apply, val_main_v10_apply,
      val_main_cst_1_apply, val_main_v14_apply, val_main_v17_apply, val_main_v3_apply, val_main_v2_apply,
      val_main_cst_apply, val_main_v0_apply, val_main_v1_apply, val_main_v7_apply, val_main_v8_apply,
      val_main_v12_apply, val_main_v13_apply, c0, c1, c7, c8, c12, c13,
      Ideal.hostDivf_def, Ideal.ofBits_def]
    rw [halve]
    rfl
  · -- columns 2, 3: the second parts, the clamped `d_wh` and the high edges
    have h4 : val_main_v4 (F := Ideal) x0 i = val_main_v3 (F := Ideal) x0 (part i) :=
      concatenate_pair_apply_right (t := S2457600x4) (s₁ := S2457600x2) (s₂ := S2457600x2) (1 : Fin 2)
        (val_main_v0 (F := Ideal) x0) (val_main_v3 (F := Ideal) x0)
        concatenates_S2457600x2_S2457600x2_S2457600x4_d1 i (rfl : S2457600x2.rank = S2457600x4.rank)
        (rfl : S2457600x2.rank = S2457600x4.rank) (part i)
        (fun b hb => match b with
          | ⟨0, _⟩ => rfl
          | ⟨1, _⟩ => absurd rfl hb)
        (by show (i 1).val % 2 + 2 = (i 1).val; omega)
    have h25 : val_main_v25 (F := Ideal) x0 x1 i = val_main_v24 (F := Ideal) x0 x1 (part i) :=
      concatenate_pair_apply_right (t := S2457600x4) (s₁ := S2457600x2) (s₂ := S2457600x2) (1 : Fin 2)
        (val_main_v21 (F := Ideal) x0 x1) (val_main_v24 (F := Ideal) x0 x1)
        concatenates_S2457600x2_S2457600x2_S2457600x4_d1 i (rfl : S2457600x2.rank = S2457600x4.rank)
        (rfl : S2457600x2.rank = S2457600x4.rank) (part i)
        (fun b hb => match b with
          | ⟨0, _⟩ => rfl
          | ⟨1, _⟩ => absurd rfl hb)
        (by show (i 1).val % 2 + 2 = (i 1).val; omega)
    rw [if_neg h, h4, h25]
    simp only [val_main_v24_apply, val_main_v16_apply, val_main_v23_apply, val_main_v11_apply, val_main_v15_apply,
      val_main_v18_apply, val_main_v22_apply, val_main_cst_3_apply, val_main_v9_apply, val_main_v10_apply,
      val_main_cst_1_apply, val_main_v14_apply, val_main_v17_apply, val_main_v3_apply, val_main_v2_apply,
      val_main_cst_apply, val_main_v0_apply, val_main_v1_apply, val_main_v7_apply, val_main_v8_apply,
      val_main_v12_apply, val_main_v13_apply, c0, c1, c7, c8, c12, c13,
      Ideal.hostDivf_def, Ideal.ofBits_def]
    rw [halve]
    rfl

end Cert.ReferenceIdeal.Decoded

end
-- ==== Proof.lean ====
/-
  The kernel decodes box-regression offsets against anchor boxes, 8192 boxes per grid point, and masks neutral
  entries by selection; the reference does the same on the whole arrays, halving by a division and masking by
  arithmetic. At the exact instance both end with the one function `Cert.BoxDecode.decode` of the two argument
  arrays (Proof/Spec.lean):
  • the kernel's result array, block by block (Proof/KernelValue.lean);
  • the reference's result, index by index (Proof/RefValue.lean), over its run (Proof/RefRun.lean) read one
    operation at a time (Proof/RefRead.lean).
  The two laws that join them — dividing by two is multiplying by a half, and `v·[¬b] + c·[b]` is `c` or `v` by the
  bit `b` — hold on every extended real, so the finiteness of the inputs is not used. The three programs' frames are
  their runs with the result forgotten, and the idealization rewrote nothing.
-/
import proofs.«163395_j53807350284714_2_alg».proof.Defs
import proofs.«163395_j53807350284714_2_alg».proof.Proof.Gen.Kernel
import proofs.«163395_j53807350284714_2_alg».proof.Proof.Gen.Kernel.Frame
import proofs.«163395_j53807350284714_2_alg».proof.Proof.Gen.KernelIdeal
import proofs.«163395_j53807350284714_2_alg».proof.Proof.Gen.KernelIdeal.Frame
import proofs.«163395_j53807350284714_2_alg».proof.Proof.Gen.ReferenceIdeal
import proofs.«163395_j53807350284714_2_alg».proof.Proof.Gen.Pre_finite_inputs
import proofs.«163395_j53807350284714_2_alg».proof.Proof.KernelValue
import proofs.«163395_j53807350284714_2_alg».proof.Proof.RefValue

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame: its run with the result forgotten. -/
theorem frame_reference : Cert.frame_ReferenceIdeal :=
  fun m ρ _ => (θ_run Cert.ReferenceIdeal.defs _ _).mono (fun _ h c => (h c).2)
    (Cert.ReferenceIdeal.ValueP.run (F := Ideal) m ρ)

/-- From memories that agree on the arguments both programs end with the decoded boxes of those arguments. -/
theorem algebraic : Cert.algebraic_KernelIdeal_ReferenceIdeal := by
  intro m ρ m' ρ' _ hagree
  refine ⟨fun c => Cert.BoxDecode.decode (n := 2457600)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Decoded.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, Cert.ReferenceIdeal.Decoded.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
